-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S1x2048 : Shape := ⟨2, ![1, 2048]⟩
abbrev S10x2048 : Shape := ⟨2, ![10, 2048]⟩
abbrev S10 : Shape := ⟨1, ![10]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S1x2048 : S_.BroadcastsInDim S1x2048 (![] : Fin 0 → Fin S1x2048.rank)
  reducesTo_S1x2048_S_d0_1 : S1x2048.ReducesTo [0, 1] S_
  bcast_S_S10x2048 : S_.BroadcastsInDim S10x2048 (![] : Fin 0 → Fin S10x2048.rank)
  reducesTo_S10x2048_S_d0_1 : S10x2048.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x2048 1) : IVec S_ 1 :=
  let main_c_5 : IVec S_ 1 := constantI S_ 1 1#1
  let main_v17 : IVec S_ 1 := (fun x v => Host.reduce IntOp.andi x v reducesTo_S10x2048_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S16384x512 .f32) (main_arg1 : FVec F S2048x512 .f32) (main_arg2 : FVec F S1x2048 .f32) (main_arg3 : FVec F S10x2048 .f32) (main_arg4 : FVec F S10 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S10x2048 .f32 := Host.absf main_arg3
  let main_cst_4 : FVec F S_ .f32 := constant S_ .f32 0x7F800000#32
  let main_v15 : FVec F S10x2048 .f32 := broadcastInDim S10x2048 ![] bcast_S_S10x2048 main_cst_4
  let main_v16 : IVec S10x2048 1 := cmpf .olt main_v14 main_v15
  fn_part1 (F := F) main_arg4 main_v13 main_v16
-- ==== Kernel.lean ====
abbrev S16384x512 : Shape := ⟨2, ![16384, 512]⟩
abbrev S2048x512 : Shape := ⟨2, ![2048, 512]⟩
abbrev S1x2048 : Shape := ⟨2, ![1, 2048]⟩
abbrev S10x2048 : Shape := ⟨2, ![10, 2048]⟩
abbrev S10 : Shape := ⟨1, ![10]⟩
abbrev S_ : Shape := ⟨0, ![]⟩
abbrev S2048 : Shape := ⟨1, ![2048]⟩
abbrev S2048x1 : Shape := ⟨2, ![2048, 1]⟩
abbrev S1x10 : Shape := ⟨2, ![1, 10]⟩
abbrev S16384x10 : Shape := ⟨2, ![16384, 10]⟩
abbrev S512x512 : Shape := ⟨2, ![512, 512]⟩
abbrev S512x10 : Shape := ⟨2, ![512, 10]⟩
abbrev S512 : Shape := ⟨1, ![512]⟩
abbrev S512x1 : Shape := ⟨2, ![512, 1]⟩
abbrev S512x2048 : Shape := ⟨2, ![512, 2048]⟩

abbrev nBuf : Space → Nat
  | .hbm => 12
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S1x2048, .f32⟩
  | .hbm, ⟨3, _⟩ => ⟨S10x2048, .f32⟩
  | .hbm, ⟨4, _⟩ => ⟨S10, .f32⟩
  | .hbm, ⟨5, _⟩ => ⟨S2048x512, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S1x2048, .f32⟩
  | .hbm, ⟨10, _⟩ => ⟨S1x10, .f32⟩
  | .hbm, ⟨11, _⟩ => ⟨S16384x10, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S1x2048, .f32⟩
  | .local _ .vmem, ⟨4, _⟩ => ⟨S1x2048, .f32⟩
  | .local _ .vmem, ⟨5, _⟩ => ⟨S10x2048, .f32⟩
  | .local _ .vmem, ⟨6, _⟩ => ⟨S1x10, .f32⟩
  | .local _ .vmem, ⟨7, _⟩ => ⟨S512x10, .f32⟩
  | .local _ .vmem, ⟨8, _⟩ => ⟨S512x10, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  shapeCasts_S2048x1_S1x2048 : S2048x1.ShapeCasts S1x2048
  shapeCasts_S10_S1x10 : S10.ShapeCasts S1x10
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  reduces_S512x512_S512 : S512x512.Reduces [1] S512
  shapeCasts_S512_S512x1 : S512.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S10x2048_S10x2048_0_0 : ∀ a, (![0, 0] : Fin 2 → Nat) a + S10x2048.size a ≤ S10x2048.size a
  h_S10x2048 : 0 < S10x2048.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S512x512_S2048x512_S512x2048_1_1_0_0_n_n_wf : DotDims.WF S512x512 S2048x512 S512x2048 [1] [1] [0] [0] [] []
  dot_S512x2048_S10x2048_S512x10_1_1_0_0_n_n_wf : DotDims.WF S512x2048 S10x2048 S512x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x2048.size a ≤ S10x2048.size a
  hwx0_4 : ∀ i : grid0.Coords, EltTy.bits .f32 = 32 ∨ (Rect.block (s := S10x2048) S10x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x10.size a ≤ S16384x10.size a
  hwx0_6 : ∀ i : grid0.Coords, EltTy.bits .f32 = 32 ∨ (Rect.block (s := S16384x10) S512x10.size (cc0_transform_6 i) (hinb0_6 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S10x2048_S512x10_1_1_0_0_n_n : DotDims S512x2048 S10x2048 S512x10 where
  lhsContracting := [1]
  rhsContracting := [1]
  lhsNonContracting := [0]
  rhsNonContracting := [0]
  lhsBatch := []
  rhsBatch := []
  wf := dot_S512x2048_S10x2048_S512x10_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S10x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S1x2048 : Shape := ⟨2, ![1, 2048]⟩
abbrev S10x2048 : Shape := ⟨2, ![10, 2048]⟩
abbrev S10 : Shape := ⟨1, ![10]⟩
abbrev S_ : Shape := ⟨0, ![]⟩
abbrev S16384 : Shape := ⟨1, ![16384]⟩
abbrev S16384x1 : Shape := ⟨2, ![16384, 1]⟩
abbrev S2048 : Shape := ⟨1, ![2048]⟩
abbrev S16384x2048 : Shape := ⟨2, ![16384, 2048]⟩
abbrev S2048x10 : Shape := ⟨2, ![2048, 10]⟩
abbrev S16384x10 : Shape := ⟨2, ![16384, 10]⟩
abbrev S1x10 : Shape := ⟨2, ![1, 10]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S1x2048, .f32⟩
  | .hbm, ⟨3, _⟩ => ⟨S10x2048, .f32⟩
  | .hbm, ⟨4, _⟩ => ⟨S10, .f32⟩
  | .hbm, ⟨5, _⟩ => ⟨S16384x512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S2048x512, .f32⟩
  | .hbm, ⟨10, _⟩ => ⟨S_, .f32⟩
  | .hbm, ⟨11, _⟩ => ⟨S2048, .f32⟩
  | .hbm, ⟨12, _⟩ => ⟨S16384x2048, .f32⟩
  | .hbm, ⟨13, _⟩ => ⟨S1x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S2048x10, .f32⟩
  | .hbm, ⟨30, _⟩ => ⟨S16384x10, .f32⟩
  | .hbm, ⟨31, _⟩ => ⟨S1x10, .f32⟩
  | .hbm, ⟨32, _⟩ => ⟨S16384x10, .f32⟩
  | .hbm, ⟨33, _⟩ => ⟨S16384x10, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S2048x512_S2048_d1 : S2048x512.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  transposes_S10x2048_S2048x10_1_0 : S10x2048.Transposes [1, 0] S2048x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  dot_S16384x512_S2048x512_S16384x2048_1_1_0_0_n_n_wf : DotDims.WF S16384x512 S2048x512 S16384x2048 [1] [1] [0] [0] [] []
  dot_S16384x2048_S2048x10_S16384x10_1_0_0_1_n_n_wf : DotDims.WF S16384x2048 S2048x10 S16384x10 [1] [0] [0] [1] [] []

variable [Facts₀]

def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf
def dot_S16384x2048_S2048x10_S16384x10_1_0_0_1_n_n : DotDims S16384x2048 S2048x10 S16384x10 where
  lhsContracting := [1]
  rhsContracting := [0]
  lhsNonContracting := [0]
  rhsNonContracting := [1]
  lhsBatch := []
  rhsBatch := []
  wf := dot_S16384x2048_S2048x10_S16384x10_1_0_0_1_n_n_wf

class Facts : Prop extends Facts₀ where

variable [Facts]
-- ==== Proof.Spec.lean ====
/-
  A radial-basis-function classifier as one function of its five arrays, on the extended reals.

  For a batch X [n, d] of points, centres C [K, d], widths β [1, K], class weights W [g, K] and a bias b [g]:
  • the squared distance from point p to centre j is taken by the expansion |x|² + |c|² − 2·⟨x, c⟩ and clamped below
    at zero — `sqDist`, with `rowSq` the squared length of a row and `rowDot` the inner product of two rows;
  • the response of centre j to point p is exp(−β_j · √(that distance)) — `response`;
  • the score of class q at point p is Σ_j response(p, j) · W(q, j) + b(q) — `score`, and `scores` is the [n, g] array.
  The two float constants (2 and the clamp's 0) are kept as the words the programs print, the same word on both
  sides, so neither is ever evaluated. Everything is stated for arbitrary extents; no law of the extended reals is used
  or needed here: the two programs this is set against differ only in where each sum is taken, not in the formula.
-/
import Idealize.ShloMosaic.PureOps.Ideal
import Idealize.ShloMosaic.Lib.ValueIdx

noncomputable section

namespace Cert.Rbf

open Idealize.ShloMosaic Idealize.ShloMosaic.ValueIdx

variable {n d K g : ℕ}

/-- The squared length of row `p`: the sum over the `d` columns of the entry times itself. -/
def rowSq (A : (⟨2, ![n, d]⟩ : Shape).Idx → EReal) (p : Fin n) : EReal :=
  ∑ k : Fin d, A (ix2 p k) * A (ix2 p k)

/-- The inner product of row `p` of `X` with row `j` of `C`. -/
def rowDot (X : (⟨2, ![n, d]⟩ : Shape).Idx → EReal) (C : (⟨2, ![K, d]⟩ : Shape).Idx → EReal) (p : Fin n) (j : Fin K) : EReal :=
  ∑ k : Fin d, X (ix2 p k) * C (ix2 j k)

/-- The squared distance from point `p` to centre `j`, expanded as |x|² + |c|² − 2⟨x, c⟩ and clamped at zero. -/
def sqDist (X : (⟨2, ![n, d]⟩ : Shape).Idx → EReal) (C : (⟨2, ![K, d]⟩ : Shape).Idx → EReal) (p : Fin n) (j : Fin K) : EReal :=
  max (rowSq X p + rowSq C j - Ideal.ofBits .f32 0x40000000#32 * rowDot X C p j) (Ideal.ofBits .f32 0x00000000#32)

/-- Centre `j`'s response to point `p`: exp(−β_j · distance). -/
def response (X : (⟨2, ![n, d]⟩ : Shape).Idx → EReal) (C : (⟨2, ![K, d]⟩ : Shape).Idx → EReal)
    (β : (⟨2, ![1, K]⟩ : Shape).Idx → EReal) (p : Fin n) (j : Fin K) : EReal :=
  Ideal.exp (-(β (ix2 (0 : Fin 1) j)) * Ideal.sqrt (sqDist X C p j))

/-- Class `q`'s score at point `p`: the responses weighted by row `q` of `W`, plus the bias. -/
def score (X : (⟨2, ![n, d]⟩ : Shape).Idx → EReal) (C : (⟨2, ![K, d]⟩ : Shape).Idx → EReal)
    (β : (⟨2, ![1, K]⟩ : Shape).Idx → EReal) (W : (⟨2, ![g, K]⟩ : Shape).Idx → EReal) (b : (⟨1, ![g]⟩ : Shape).Idx → EReal)
    (p : Fin n) (q : Fin g) : EReal :=
  (∑ j : Fin K, response X C β p j * W (ix2 q j)) + b (ix1 q)

/-- The [n, g] array of scores. -/
def scores (X : (⟨2, ![n, d]⟩ : Shape).Idx → EReal) (C : (⟨2, ![K, d]⟩ : Shape).Idx → EReal)
    (β : (⟨2, ![1, K]⟩ : Shape).Idx → EReal) (W : (⟨2, ![g, K]⟩ : Shape).Idx → EReal) (b : (⟨1, ![g]⟩ : Shape).Idx → EReal) :
    (⟨2, ![n, g]⟩ : Shape).Idx → EReal :=
  fun i => score X C β W b (i 0) (i 1)

/-- The array at `(p, q)` is the score there. -/
theorem scores_apply (X : (⟨2, ![n, d]⟩ : Shape).Idx → EReal) (C : (⟨2, ![K, d]⟩ : Shape).Idx → EReal)
    (β : (⟨2, ![1, K]⟩ : Shape).Idx → EReal) (W : (⟨2, ![g, K]⟩ : Shape).Idx → EReal) (b : (⟨1, ![g]⟩ : Shape).Idx → EReal)
    (p : Fin n) (q : Fin g) : scores X C β W b (ix2 p q) = score X C β W b p q := rfl

end Cert.Rbf

end
-- ==== Proof.ReferenceScores.lean ====
/-
  The reference program computes `Cert.Rbf.scores`.

  The reference is the formula written out on whole arrays: row sums of squares of the batch and of the centres, the
  [n, K] table of inner products, the clamped expanded distance, the responses, one product with the transposed
  weights, the bias added along the rows. Read at an entry `(p, j)` of the [n, K] stages, and `(p, q)` of the result,
  every stage is the matching piece of the specification: the broadcasts only choose which row or column an entry
  comes from, the sums start from the zero word (0 + s = s on every extended real), the host's negation is the
  negation, its square root and exponential are the extended-real ones, and the product against the transposed
  weights reads the weights at `(q, j)`.
-/
import proofs.«123419_j87239375716416_2_alg».proof.Proof.Gen.ReferenceIdeal.Read
import proofs.«123419_j87239375716416_2_alg».proof.Proof.Spec

noncomputable section

namespace Cert.Rbf.Reference

open Cert.ReferenceIdeal Cert.ReferenceIdeal.Read Idealize.ShloMosaic Idealize.ShloMosaic.ValueIdx

variable (x0 : (⟨S16384x512, .f32⟩ : BufTy).Contents (Elt Ideal)) (x1 : (⟨S2048x512, .f32⟩ : BufTy).Contents (Elt Ideal))
  (x2 : (⟨S1x2048, .f32⟩ : BufTy).Contents (Elt Ideal)) (x3 : (⟨S10x2048, .f32⟩ : BufTy).Contents (Elt Ideal))
  (x4 : (⟨S10, .f32⟩ : BufTy).Contents (Elt Ideal))

/-- The batch's row sums of squares, spread over the [n, K] table: entry `(p, j)` is the squared length of point `p`. -/
theorem batchSq_at (p : Fin 16384) (j : Fin 2048) :
    val_main_v7 (F := Ideal) x0 (ix2 p j) = Cert.Rbf.rowSq x0 p := by
  have e7 : idx_main_v7 (ix2 p j) = ix2 p (0 : Fin 1) :=
    funext fun a => Fin.ext (by match a with | ⟨0, _⟩ => rfl | ⟨1, _⟩ => rfl)
  have e2 : idx_main_v2 (ix2 p (0 : Fin 1)) = ix1 p :=
    funext fun a => Fin.ext (by match a with | ⟨0, _⟩ => rfl)
  have e1 : ∀ k : Fin 512, idx_main_v1 (ix1 p) k = ix2 p k := fun k =>
    funext fun a => Fin.ext (by match a with | ⟨0, _⟩ => rfl | ⟨1, _⟩ => rfl)
  rw [val_main_v7_apply, e7, val_main_v2_apply, e2, val_main_v1_apply, val_main_cst_apply]
  simp only [e1, val_main_v0_apply, Ideal.ofBits_def, Ideal.ofBits_zero_f32, Ideal.mulf_def, zero_add]
  rfl

/-- The centres' row sums of squares, spread over the [n, K] table: entry `(p, j)` is the squared length of centre `j`. -/
theorem centreSq_at (p : Fin 16384) (j : Fin 2048) :
    val_main_v8 (F := Ideal) x1 (ix2 p j) = Cert.Rbf.rowSq x1 j := by
  have e8 : idx_main_v8 (ix2 p j) = ix2 (0 : Fin 1) j :=
    funext fun a => Fin.ext (by match a with | ⟨0, _⟩ => rfl | ⟨1, _⟩ => rfl)
  have e6 : idx_main_v6 (ix2 (0 : Fin 1) j) = ix1 j :=
    funext fun a => Fin.ext (by match a with | ⟨0, _⟩ => rfl)
  have e4 : ∀ k : Fin 512, idx_main_v4 (ix1 j) k = ix2 j k := fun k =>
    funext fun a => Fin.ext (by match a with | ⟨0, _⟩ => rfl | ⟨1, _⟩ => rfl)
  rw [val_main_v8_apply, e8, val_main_v6_apply, e6, val_main_v4_apply, val_main_cst_0_apply]
  simp only [e4, val_main_v3_apply, Ideal.ofBits_def, Ideal.ofBits_zero_f32, Ideal.mulf_def, zero_add]
  rfl

/-- The table of inner products: entry `(p, j)` is the inner product of point `p` with centre `j`. -/
theorem inner_at (p : Fin 16384) (j : Fin 2048) :
    val_main_v5 (F := Ideal) x0 x1 (ix2 p j) = Cert.Rbf.rowDot x0 x1 p j := by
  rw [val_main_v5_apply]
  unfold Cert.Rbf.rowDot
  refine Finset.sum_congr rfl fun k _ => ?_
  have el : lidx_main_v5 (ix2 p j) k = ix2 p k :=
    funext fun a => Fin.ext (by match a with | ⟨0, _⟩ => rfl | ⟨1, _⟩ => rfl)
  have er : ridx_main_v5 (ix2 p j) k = ix2 j k :=
    funext fun a => Fin.ext (by match a with | ⟨0, _⟩ => rfl | ⟨1, _⟩ => rfl)
  rw [el, er]

/-- The clamped expanded squared distance at `(p, j)`. -/
theorem sqDist_at (p : Fin 16384) (j : Fin 2048) :
    val_main_v14 (F := Ideal) x0 x1 (ix2 p j) = Cert.Rbf.sqDist x0 x1 p j := by
  rw [val_main_v14_apply, val_main_v12_apply, val_main_v9_apply, val_main_v11_apply, val_main_v13_apply,
    val_main_v10_apply, val_main_cst_2_apply, val_main_cst_1_apply, batchSq_at, centreSq_at, inner_at]
  simp only [Ideal.maximumf_def, Ideal.subf_def, Ideal.addf_def, Ideal.mulf_def, Ideal.ofBits_def]
  rfl

/-- The response of centre `j` to point `p`. -/
theorem response_at (p : Fin 16384) (j : Fin 2048) :
    val_main_v19 (F := Ideal) x0 x1 x2 (ix2 p j) = Cert.Rbf.response x0 x1 x2 p j := by
  have e17 : idx_main_v17 (ix2 p j) = ix2 (0 : Fin 1) j :=
    funext fun a => Fin.ext (by match a with | ⟨0, _⟩ => rfl | ⟨1, _⟩ => rfl)
  rw [val_main_v19_apply, val_main_v18_apply, val_main_v17_apply, e17, val_main_v16_apply, val_main_v15_apply, sqDist_at]
  simp only [Ideal.hostUnary_exp_def, Ideal.hostUnary_sqrt_def, Ideal.hostNegf_def, Ideal.negf_def, Ideal.mulf_def]
  rfl

/-- The result at `(p, q)` is class `q`'s score at point `p`: the product with the transposed weights reads the weights
    at `(q, j)`, and the bias row contributes `b q`. -/
theorem score_at (p : Fin 16384) (q : Fin 10) :
    val_main_v24 (F := Ideal) x0 x1 x2 x3 x4 (ix2 p q) = Cert.Rbf.score x0 x1 x2 x3 x4 p q := by
  have e23 : idx_main_v23 (ix2 p q) = ix2 (0 : Fin 1) q :=
    funext fun a => Fin.ext (by match a with | ⟨0, _⟩ => rfl | ⟨1, _⟩ => rfl)
  have e22 : idx_main_v22 (ix2 (0 : Fin 1) q) = ix1 q :=
    funext fun a => Fin.ext (by match a with | ⟨0, _⟩ => rfl)
  rw [val_main_v24_apply, val_main_v21_apply, val_main_v23_apply, e23, val_main_v22_apply, e22]
  simp only [Ideal.addf_def]
  unfold Cert.Rbf.score
  refine congrArg (· + x4 (ix1 q)) (Finset.sum_congr rfl fun k _ => ?_)
  have el : lidx_main_v21 (ix2 p q) k = ix2 p k :=
    funext fun a => Fin.ext (by match a with | ⟨0, _⟩ => rfl | ⟨1, _⟩ => rfl)
  have er : ridx_main_v21 (ix2 p q) k = ix2 k q :=
    funext fun a => Fin.ext (by match a with | ⟨0, _⟩ => rfl | ⟨1, _⟩ => rfl)
  have e20 : idx_main_v20 (ix2 k q) = ix2 q k :=
    funext fun a => Fin.ext (by match a with | ⟨0, _⟩ => rfl | ⟨1, _⟩ => rfl)
  rw [el, er, response_at, val_main_v20_apply, e20]

/-- The reference's result array is the array of scores. -/
theorem result_eq : val_main_v24 (F := Ideal) x0 x1 x2 x3 x4 = Cert.Rbf.scores x0 x1 x2 x3 x4 := by
  funext i
  obtain ⟨p, q, rfl⟩ : ∃ (p : Fin 16384) (q : Fin 10), i = ix2 p q := ⟨i 0, i 1, eq_ix2 i⟩
  rw [Cert.Rbf.scores_apply]
  exact score_at x0 x1 x2 x3 x4 p q

end Cert.Rbf.Reference

end
-- ==== Proof.BlockScore.lean ====
/-
  What one block of points yields, and that it is the score.

  A block of `m` points is scored against ALL the centres at once, so the only thing a block does not compute for itself
  is the centres' squared lengths, which it is handed as a row `c2` [1, K]; the bias is handed as a row `b2` [1, g], and
  the negated width is formed as `0 − β`. `blockScore` is that formula at row `r` of the block and class `q`.
  It is the specification's `score` at point `p` as soon as row `r` of the block is row `p` of the batch, `c2` holds the
  centres' squared lengths and `b2` holds the bias: the two row sums over the block's row are the batch's row sums
  term by term, and `0 − β = −β` on every extended real (infinite ones included), so no finiteness is asked of anything.
-/
import proofs.«123419_j87239375716416_2_alg».proof.Proof.Spec
import Idealize.ShloMosaic.PureOps.Ideal.Laws

noncomputable section

namespace Cert.Rbf

open Idealize.ShloMosaic Idealize.ShloMosaic.ValueIdx

variable {n m d K g : ℕ}

/-- The score of class `q` at row `r` of a block `x` of points, from the centres `C`, their squared lengths `c2` as a
    row, the widths `β`, the weights `W` and the bias `b2` as a row. -/
def blockScore (x : (⟨2, ![m, d]⟩ : Shape).Idx → EReal) (C : (⟨2, ![K, d]⟩ : Shape).Idx → EReal)
    (c2 β : (⟨2, ![1, K]⟩ : Shape).Idx → EReal) (W : (⟨2, ![g, K]⟩ : Shape).Idx → EReal)
    (b2 : (⟨2, ![1, g]⟩ : Shape).Idx → EReal) (r : Fin m) (q : Fin g) : EReal :=
  (∑ j : Fin K, Ideal.exp ((Ideal.ofBits .f32 0x00000000#32 - β (ix2 (0 : Fin 1) j))
      * Ideal.sqrt (max (rowSq x r + c2 (ix2 (0 : Fin 1) j) - Ideal.ofBits .f32 0x40000000#32 * rowDot x C r j)
          (Ideal.ofBits .f32 0x00000000#32))) * W (ix2 q j))
    + b2 (ix2 (0 : Fin 1) q)

/-- A block's score at row `r` is the batch's score at point `p` when the block's row `r` is the batch's row `p`, the
    row `c2` holds the centres' squared lengths and the row `b2` holds the bias. -/
theorem blockScore_eq_score (X : (⟨2, ![n, d]⟩ : Shape).Idx → EReal) (C : (⟨2, ![K, d]⟩ : Shape).Idx → EReal)
    (β : (⟨2, ![1, K]⟩ : Shape).Idx → EReal) (W : (⟨2, ![g, K]⟩ : Shape).Idx → EReal) (b : (⟨1, ![g]⟩ : Shape).Idx → EReal)
    (x : (⟨2, ![m, d]⟩ : Shape).Idx → EReal) (c2 : (⟨2, ![1, K]⟩ : Shape).Idx → EReal)
    (b2 : (⟨2, ![1, g]⟩ : Shape).Idx → EReal) (p : Fin n) (r : Fin m) (q : Fin g)
    (hx : ∀ k : Fin d, x (ix2 r k) = X (ix2 p k))
    (hc2 : ∀ j : Fin K, c2 (ix2 (0 : Fin 1) j) = rowSq C j)
    (hb : b2 (ix2 (0 : Fin 1) q) = b (ix1 q)) :
    blockScore x C c2 β W b2 r q = score X C β W b p q := by
  have hsq : rowSq x r = rowSq X p := by
    unfold rowSq
    exact Finset.sum_congr rfl fun k _ => by rw [hx k]
  have hdot : ∀ j : Fin K, rowDot x C r j = rowDot X C p j := fun j => by
    unfold rowDot
    exact Finset.sum_congr rfl fun k _ => by rw [hx k]
  unfold blockScore score response sqDist
  rw [hb, hsq]
  refine congrArg (· + b (ix1 q)) (Finset.sum_congr rfl fun j _ => ?_)
  rw [hc2 j, hdot j, Ideal.ofBits_zero_f32, zero_sub]

end Cert.Rbf

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.LibDotTransposedRhs.lean ====
/-
  A contraction with the right operand transposed, read at an output index, over the extended reals.

  For the dimension numbers "contract the left operand's axis 1 with the right operand's axis 1, no batch axis"
  (an [M,K] array against an [N,K] array: rows against rows, as a query block meets a key block), entry (p, g) of the
  product into a zero accumulator is the sum over k < K of the left operand at (p, k) times the right operand at
  (g, k). At the ideal instance nothing rounds and the order of a finite sum is immaterial. The statements are general
  in the three extents.
-/
import Idealize.ShloMosaic.PureOps.Ideal.Laws
import Idealize.ShloMosaic.Lib.ValueIdx

noncomputable section

namespace Cert.DotTransposedRhs

open Idealize.ShloMosaic Idealize.ShloMosaic.ValueIdx

variable (M K N : ℕ)

/-- Axis 0 of the left operand's index is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- Axis 1 of the left operand's index is the contraction position. -/
theorem lhs_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- Axis 0 of the right operand's index is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Axis 1 of the right operand's index is the contraction position. -/
theorem rhs_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum over its one-axis index shape is the sum over k < K of row entry times row entry. -/
theorem sum_eq (l : (⟨2, ![M, K]⟩ : Shape).Idx → EReal) (r : (⟨2, ![N, K]⟩ : Shape).Idx → EReal) (p : Fin M) (g : Fin N) :
    ∑ q : (DotDims.transposedRhs M K N).contr.Idx,
        l ((DotDims.transposedRhs M K N).lhsIdx (ix2 p g) q) * r ((DotDims.transposedRhs M K N).rhsIdx (ix2 p g) q)
      = ∑ k : Fin K, l (ix2 p k) * r (ix2 g k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p g) ((contrEquiv1 (DotDims.transposedRhs M K N) K rfl rfl).symm k) = ix2 p k :=
    funext fun a => Fin.ext (by
      match a with
      | ⟨0, _⟩ => exact lhs_row M K N _ _
      | ⟨1, _⟩ => exact (lhs_contr M K N _ _).trans hk)
  have er : (DotDims.transposedRhs M K N).rhsIdx (ix2 p g) ((contrEquiv1 (DotDims.transposedRhs M K N) K rfl rfl).symm k) = ix2 g k :=
    funext fun a => Fin.ext (by
      match a with
      | ⟨0, _⟩ => exact rhs_row M K N _ _
      | ⟨1, _⟩ => exact (rhs_contr M K N _ _).trans hk)
  rw [el, er]

variable {M K N}

/-- A matrix unit's product with these dimension numbers into the zero accumulator, at entry (p, g). -/
theorem matmul_zero_apply {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (p : Fin M) (g : Fin N) :
    matmul (F := Ideal) d none l r (constant ⟨2, ![M, N]⟩ .f32 0x00000000#32) (ix2 p g)
      = ∑ k : Fin K, l (ix2 p k) * r (ix2 g k) := by
  subst hd
  simp only [matmul]
  rw [Ideal.matmul_constant_zero_apply]
  exact sum_eq M K N l r p g

end Cert.DotTransposedRhs

end
-- ==== Proof.LibDotTransposedRhsPrec.lean ====
/-
  A contraction with the right operand transposed, at any precision attribute, read at an output index.

  Over the extended reals a matrix unit's precision attribute (none, bf16, fp32: how many passes emulate the product)
  changes nothing: nothing rounds, so the product of an [M, K] array with an [N, K] array, rows against rows, into the
  zero accumulator is at entry `(p, g)` the sum over `k < K` of the left operand at `(p, k)` times the right operand
  at `(g, k)`, whatever the attribute says. General in the three extents, the operands' formats and the attribute.
-/
import proofs.«123419_j87239375716416_2_alg».proof.Proof.LibDotTransposedRhs

noncomputable section

namespace Cert.DotTransposedRhs

open Idealize.ShloMosaic Idealize.ShloMosaic.ValueIdx

variable {M K N : ℕ}

/-- Rows against rows into the zero accumulator, at entry `(p, g)`, for any precision attribute `prec`. -/
theorem matmul_zero_apply_prec {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (p : Fin M) (g : Fin N) :
    matmul (F := Ideal) d prec l r (constant ⟨2, ![M, N]⟩ .f32 0x00000000#32) (ix2 p g)
      = ∑ k : Fin K, l (ix2 p k) * r (ix2 g k) := by
  subst hd
  simp only [matmul]
  rw [Ideal.matmul_constant_zero_apply]
  exact sum_eq M K N l r p g

end Cert.DotTransposedRhs

end
-- ==== Proof.Body.lean ====
/-
  The kernel body's stored value, read at an entry.

  The body loads a block `v0` of 512 points, all 2048 centres `v1`, the row `v6` of the centres' squared lengths, the
  widths `v17`, the weights `v23` and the bias row `v25`, and stores one [512, 10] array. At entry `(r, q)` that array is
  `Cert.Rbf.blockScore` at row `r` and class `q`:
  • the second product (the response table against the weights, rows against rows, into zero) is at `(r, q)` the sum
    over the 2048 centres of the response at `(r, j)` times the weight at `(q, j)`;
  • the response table is pointwise in four arrays — the spread negated widths, the spread column of the block's row
    sums of squares, the spread row `v6`, and the first product — so at `(r, j)` it is the formula of their entries;
  • the column of row sums at `(r, ·)` is the sum over the 512 coordinates of the square, the first product at `(r, j)`
    is the inner product of point `r` with centre `j`, and the spread rows read their one row at column `j` (or `q`).
-/
import proofs.«123419_j87239375716416_2_alg».proof.Proof.Gen.KernelIdeal.Skeleton
import proofs.«123419_j87239375716416_2_alg».proof.Proof.BlockScore
import proofs.«123419_j87239375716416_2_alg».proof.Proof.LibKeepdims
import proofs.«123419_j87239375716416_2_alg».proof.Proof.LibDotTransposedRhsPrec
import Idealize.ShloMosaic.Lib.ValueLayout
import Idealize.ShloMosaic.Lib.Pipeline.Value

noncomputable section

namespace Cert.Rbf.Body

open Cert.KernelIdeal Cert.KernelIdeal.Gen Idealize.ShloMosaic Idealize.ShloMosaic.ValueIdx

/-- The response table is pointwise in its four arrays: spread negated widths `D`, spread squared lengths `A` and
    `B`, and the table of inner products `P`, with the two scalar constants spread to the table's shape. -/
theorem response_pointwise {s : Shape} (D A B P : FVec Ideal s .f32) (two zero : Ideal .f32) (i : s.Idx) :
    exp (mulf D (sqrt (maximumf (subf (addf A B) (mulf (broadcast s two) P)) (broadcast s zero)))) i
      = Ideal.exp (D i * Ideal.sqrt (max (A i + B i - two * P i) zero)) := rfl

/-- The stored value at `(r, q)`. -/
theorem payload_at (v0 : FVec Ideal S512x512 .f32) (v1 : FVec Ideal S2048x512 .f32) (v6 v17 : FVec Ideal S1x2048 .f32)
    (v23 : FVec Ideal S10x2048 .f32) (v25 : FVec Ideal S1x10 .f32) (r : Fin 512) (q : Fin 10) :
    k0_pay1 (F := Ideal) v0 v1 v6 v17 v23 v25 (ix2 r q) = Cert.Rbf.blockScore v0 v1 v6 v17 v23 v25 r q := by
  unfold k0_pay1 Cert.Rbf.blockScore
  dsimp only
  refine (addf_apply _ _ (ix2 r q)).trans (congrArg₂ (· + ·) ?_ ?_)
  · -- the product with the weights, rows against rows, into zero
    refine (Cert.DotTransposedRhs.matmul_zero_apply_prec dot_S512x2048_S10x2048_S512x10_1_1_0_0_n_n rfl
      (some .fp32) _ v23 r q).trans ?_
    refine Finset.sum_congr rfl fun j _ => congrArg (· * v23 (ix2 q j)) ?_
    -- the response table at (r, j), pointwise in its four arrays
    refine (response_pointwise _ _ _ _ _ _ (ix2 r j)).trans ?_
    refine congrArg Ideal.exp (congrArg₂ (· * ·) ?_ (congrArg Ideal.sqrt (congrArg₂ max
      (congrArg₂ (· - ·) (congrArg₂ (· + ·) ?_ ?_) (congrArg₂ (· * ·) rfl ?_)) rfl)))
    · -- the negated widths, one row spread over the block's rows
      exact broadcastTo_1b_ab_apply _ _ r j
    · -- the block's row sums of squares: a lane sum, set as a column, spread along the rows
      refine (Cert.Lib.Keepdims.broadcastTo_a1_ab_apply _ _ r j).trans ?_
      refine (Cert.Lib.Keepdims.shapeCast_a_a1_apply _ _ r (0 : Fin 1)).trans ?_
      exact Cert.Lib.Keepdims.laneSum_apply (mulf v0 v0) _ _ _ _ r
    · -- the centres' squared lengths, one row spread over the block's rows
      exact (broadcastTo_1b_ab_apply _ _ r j).trans (congrFun (shapeCast_self v6 _) _)
    · -- the first product, rows against rows, into zero: the inner product of point r with centre j
      exact Cert.DotTransposedRhs.matmul_zero_apply_prec dot_S512x512_S2048x512_S512x2048_1_1_0_0_n_n rfl
        (some .fp32) v0 v1 r j
  · -- the bias row spread over the block's rows
    exact (broadcastTo_1b_ab_apply _ _ r q).trans (congrFun (shapeCast_self v25 _) _)

end Cert.Rbf.Body

end
-- ==== Proof.LibHostColumns.lean ====
/-
  A host row sum and its column, read at an index.

  On the host, `sum(x, axis = -1, keepdims = True)` of an [a, b] array is a `reduce` with an add body over the last
  axis, from an initial scalar, followed by a `broadcast_in_dim` that sets the [a] vector of sums as a column [a, 1].
  Over the extended reals:
  • `hostRowSum_apply`: the reduce, read at row `p`, is the initial value plus the finite sum over `k < b` of the array
    at `(p, k)` — the reduced index with the summed coordinate put back is `(p, k)`;
  • `broadcastInDim_a_a1_apply`: the vector set as a column reads, at `(p, u)`, the vector at `p` (for any entry type).
-/
import Idealize.ShloMosaic.Lib.Pipeline.Value
import Idealize.ShloMosaic.Lib.ValueIdx
import Idealize.ShloMosaic.PureOps.Ideal.Laws

noncomputable section

namespace Cert.Lib.HostColumns

open Idealize.ShloMosaic Idealize.ShloMosaic.ValueIdx

/-- The host's sum of an [a, b] array along its last axis, from the initial scalar `init`, read at row `p`. -/
theorem hostRowSum_apply {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init ix0 + ∑ k : Fin b, x (ix2 p k) := by
  unfold Host.reduceAdd
  rw [Ideal.hostReduceAdd_def, Ideal.hostReduceAdd_single h' h]
  refine congrArg₂ (· + ·) (congrArg init (funext fun d => d.elim0)) (Finset.sum_congr rfl fun k _ => ?_)
  exact congrArg x (funext fun d => Fin.ext (by
    match d with
    | ⟨0, _⟩ => rfl
    | ⟨1, _⟩ => rfl))

/-- A vector [a] set as a column [a, 1] by `broadcast_in_dim` along axis 0: entry `(p, u)` is the vector's entry `p`. -/
theorem broadcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun d => ?_
  match d with
  | ⟨0, _⟩ =>
    show p.val = if a = 1 then 0 else p.val
    split
    · have := p.isLt; omega
    · rfl

end Cert.Lib.HostColumns

end
-- ==== Proof.LibColumnAsRow.lean ====
/-
  A column viewed as a row, read at an index.

  A reshape keeps the row-major order of the entries. The column [a, 1] lists its entries (0,0), (1,0), …, (a-1,0);
  the row [1, a] lists (0,0), (0,1), …, (0,a-1). So entry `(u, q)` of the row is entry `(q, 0)` of the column: both sit
  at row-major position `q`. This is the step that turns the keepdims column of per-row sums of one matrix into the row
  that is spread over the rows of another (a `sum(axis = 1, keepdims = True).reshape(1, a)`). General in the extent and
  the entry type.
-/
import Idealize.ShloMosaic.Lib.Pipeline.Value
import Idealize.ShloMosaic.Lib.ValueIdx

noncomputable section

namespace Cert.Lib.ColumnAsRow

open Idealize.ShloMosaic Idealize.ShloMosaic.ValueIdx

variable {α : Type}

/-- A column [a, 1] viewed as a row [1, a]: entry `(u, q)` of the row is entry `(q, 0)` of the column (row-major
    position `q · 1 + 0 = 0 · a + q`). -/
theorem shapeCast_a1_1a_apply {a : ℕ} (x : (⟨2, ![a, 1]⟩ : Shape).Idx → α)
    (h : (⟨2, ![a, 1]⟩ : Shape).ShapeCasts ⟨2, ![1, a]⟩) (u : Fin 1) (q : Fin a) :
    shapeCast ⟨2, ![1, a]⟩ x h (ix2 u q) = x (ix2 q (0 : Fin 1)) :=
  shapeCast_apply x h _ _ (by
    have hu : u.val = 0 := by omega
    rw [Shape.rowMajor_val_two, Shape.rowMajor_val_two]
    show q.val * 1 + 0 = u.val * a + q.val
    rw [hu, Nat.mul_one, Nat.add_zero, Nat.zero_mul, Nat.zero_add])

end Cert.Lib.ColumnAsRow

end
-- ==== Proof.HostPrefix.lean ====
/-
  The two arrays the host lines write before the kernel is launched.

  Ahead of the launch the program squares the centres, sums each centre's row from the zero word, sets the 2048 sums as
  a column and views that column as a row [1, 2048]; and it views the bias vector [10] as a row [1, 10]. The kernel's
  third and sixth operands are these two rows. Read at an entry:
  • the row of sums at `(0, j)` is the squared length of centre `j` — the reshape keeps row-major order, so `(0, j)` of
    the row is `(j, 0)` of the column, which is the `j`-th sum, and a sum started from the zero word is the sum;
  • the bias row at `(0, q)` is the bias at `q`.
-/
import proofs.«123419_j87239375716416_2_alg».proof.Proof.Gen.KernelIdeal.Frame
import proofs.«123419_j87239375716416_2_alg».proof.Proof.Spec
import proofs.«123419_j87239375716416_2_alg».proof.Proof.LibHostColumns
import proofs.«123419_j87239375716416_2_alg».proof.Proof.LibColumnAsRow
import Idealize.ShloMosaic.Lib.ValueLayout
import Idealize.ShloMosaic.Lib.StableHlo.Run

noncomputable section

namespace Cert.Rbf.Prefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The third operand's array when the region is entered: the column of the centres' row sums of squares, as a row. -/
theorem centreSq_row (c : Dev nD) :
    (V m c main_v3 : S1x2048.Idx → EReal)
      = shapeCast S1x2048 (broadcastInDim S2048x1 ![0] bcast_S2048_S2048x1_0
          (Host.reduceAdd (F := Ideal) (mulf (m ((c : Thread nD τ).loc main_arg1)) (m ((c : Thread nD τ).loc main_arg1)))
            (constant (F := Ideal) S_ .f32 0x00000000#32) reducesTo_S2048x512_S2048_d1 h_S_))
          shapeCasts_S2048x1_S1x2048 := by
  dsimp only [V, hostOps0]
  after_results
  rfl

/-- Entry `(0, j)` of that row is the squared length of centre `j`. -/
theorem centreSq_row_at (c : Dev nD) (j : Fin 2048) :
    (V m c main_v3 : S1x2048.Idx → EReal) (ix2 (0 : Fin 1) j)
      = Cert.Rbf.rowSq (m ((c : Thread nD τ).loc main_arg1)) j := by
  rw [centreSq_row]
  refine (Cert.Lib.ColumnAsRow.shapeCast_a1_1a_apply _ _ (0 : Fin 1) j).trans ?_
  refine (Cert.Lib.HostColumns.broadcastInDim_a_a1_apply _ _ j (0 : Fin 1)).trans ?_
  refine (Cert.Lib.HostColumns.hostRowSum_apply _ _ reducesTo_S2048x512_S2048_d1 (by decide) h_S_ j).trans ?_
  show Ideal.ofBits .f32 0x00000000#32 + _ = _
  rw [Ideal.ofBits_zero_f32, zero_add]
  rfl

/-- The sixth operand's array when the region is entered: the bias vector as a row. -/
theorem bias_row (c : Dev nD) :
    (V m c main_v4 : S1x10.Idx → EReal) = shapeCast S1x10 (m ((c : Thread nD τ).loc main_arg4)) shapeCasts_S10_S1x10 := by
  dsimp only [V, hostOps0]
  after_results
  rfl

/-- Entry `(0, q)` of that row is the bias at `q`. -/
theorem bias_row_at (c : Dev nD) (q : Fin 10) :
    (V m c main_v4 : S1x10.Idx → EReal) (ix2 (0 : Fin 1) q) = m ((c : Thread nD τ).loc main_arg4) (ix1 q) := by
  rw [bias_row]
  exact shapeCast_a_1a_apply _ _ (0 : Fin 1) q

end Cert.Rbf.Prefix

end
-- ==== Proof.WholeArray.lean ====
/-
  From the blocks to the whole result array.

  The launch walks 32 grid points. At point `t` the first operand's block is rows 512·t … 512·t + 511 of the batch and
  the result's block is the same rows of the result; the other five operands (centres, the row of their squared
  lengths, widths, weights, bias row) are each one block that is the whole array, the same at every point. So what
  point `t` writes back at `(r, q)` of its block is the block score of point 512·t + r — which is the specification's
  score there, the five resident blocks being what the host lines and the caller put in those arrays. The 32 row
  blocks tile the 16384 rows (row `i` lies in block `i / 512`), so the array after the run is the array of scores.
-/
import proofs.«123419_j87239375716416_2_alg».proof.Proof.Gen.KernelIdeal.Value
import proofs.«123419_j87239375716416_2_alg».proof.Proof.Body
import proofs.«123419_j87239375716416_2_alg».proof.Proof.HostPrefix

set_option maxRecDepth 16384

noncomputable section

namespace Cert.Rbf.WholeArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The array of scores of the five argument arrays as launched. -/
abbrev result (c : Dev nD) : S16384x10.Idx → EReal :=
  Cert.Rbf.scores (m ((c : Thread nD τ).loc main_arg0)) (m ((c : Thread nD τ).loc main_arg1))
    (m ((c : Thread nD τ).loc main_arg2)) (m ((c : Thread nD τ).loc main_arg3)) (m ((c : Thread nD τ).loc main_arg4))

theorem hz : (![0, 0] : Fin 2 → Nat) = fun _ => 0 := funext fun a => by fin_cases a <;> rfl

/-! ## The index maps, decided over the 32 points -/

/-- The batch's and the result's blocks at point `t` are row block `t`, column block 0. -/
theorem idx_rows : ∀ t : Fin cfg0.N, win0_0.index t (0 : Fin 2) = t.val ∧ win0_0.index t (1 : Fin 2) = 0
    ∧ win0_6.index t (0 : Fin 2) = t.val ∧ win0_6.index t (1 : Fin 2) = 0 :=
  (by decide +kernel : ∀ t : Fin grid0.N, _)

/-- The other five operands' blocks are block (0, 0) at every point. -/
theorem idx_resident : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem point_lt (t : Fin cfg0.N) : t.val < 32 := lt_of_lt_of_eq t.isLt N_0

/-! ## Each operand's block at a point, read where the rows say -/

/-- Row `r` of the batch's block at point `t` is row 512·t + r of the batch as launched. -/
theorem batch_block (c : Dev nD) (t : Fin cfg0.N) (r : Fin 512) (p : Fin 16384) (hp : p.val = 512 * t.val + r.val)
    (k : Fin 512) :
    (iblk m c 0 t : S512x512.Idx → EReal) (ix2 r k) = m ((c : Thread nD τ).loc main_arg0) (ix2 p k) := by
  obtain ⟨e0, e1, -, -⟩ := idx_rows t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = p.val; omega
  | ⟨1, _⟩ => show win0_0.index t (1 : Fin 2) * 512 + 1 * k.val = k.val; omega

/-- The centres' block at any point is the centres as launched. -/
theorem centres_block (c : Dev nD) (t : Fin cfg0.N) :
    (iblk m c 1 t : S2048x512.Idx → EReal) = m ((c : Thread nD τ).loc main_arg1) := by
  obtain ⟨⟨e0, e1⟩, -⟩ := idx_resident t
  funext y
  show V m c main_arg1 (((cfg0.win 1).blk t).view.emb y) = _
  rw [V_main_arg1]
  refine congrArg _ (funext fun a => Fin.ext ?_)
  match a with
  | ⟨0, _⟩ => show win0_1.index t (0 : Fin 2) * 2048 + 1 * (y 0).val = (y 0).val; omega
  | ⟨1, _⟩ => show win0_1.index t (1 : Fin 2) * 512 + 1 * (y 1).val = (y 1).val; omega

/-- The squared-lengths row's block at any point, at `(0, j)`, is the squared length of centre `j`. -/
theorem centreSq_block (c : Dev nD) (t : Fin cfg0.N) (j : Fin 2048) :
    (iblk m c 2 t : S1x2048.Idx → EReal) (ix2 (0 : Fin 1) j) = Cert.Rbf.rowSq (m ((c : Thread nD τ).loc main_arg1)) j := by
  obtain ⟨-, ⟨e0, e1⟩, -⟩ := idx_resident t
  refine Eq.trans ?_ (Cert.Rbf.Prefix.centreSq_row_at m c j)
  show V m c main_v3 (((cfg0.win 2).blk t).view.emb (ix2 (0 : Fin 1) j)) = V m c main_v3 (ix2 (0 : Fin 1) j)
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * j.val = j.val; omega

/-- The widths' block at any point is the widths as launched. -/
theorem widths_block (c : Dev nD) (t : Fin cfg0.N) :
    (iblk m c 3 t : S1x2048.Idx → EReal) = m ((c : Thread nD τ).loc main_arg2) := by
  obtain ⟨-, -, ⟨e0, e1⟩, -⟩ := idx_resident t
  funext y
  show V m c main_arg2 (((cfg0.win 3).blk t).view.emb y) = _
  rw [V_main_arg2]
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 2048 + 1 * (y 1).val = (y 1).val; omega

/-- The weights' block at any point is the weights as launched. -/
theorem weights_block (c : Dev nD) (t : Fin cfg0.N) :
    (iblk m c 4 t : S10x2048.Idx → EReal) = m ((c : Thread nD τ).loc main_arg3) := by
  obtain ⟨-, -, -, ⟨e0, e1⟩, -⟩ := idx_resident t
  funext y
  show V m c main_arg3 (((cfg0.win 4).blk t).view.emb y) = _
  rw [V_main_arg3]
  refine congrArg _ (funext fun a => Fin.ext ?_)
  match a with
  | ⟨0, _⟩ => show win0_4.index t (0 : Fin 2) * 10 + 1 * (y 0).val = (y 0).val; omega
  | ⟨1, _⟩ => show win0_4.index t (1 : Fin 2) * 2048 + 1 * (y 1).val = (y 1).val; omega

/-- The bias row's block at any point, at `(0, q)`, is the bias at `q`. -/
theorem bias_block (c : Dev nD) (t : Fin cfg0.N) (q : Fin 10) :
    (iblk m c 5 t : S1x10.Idx → EReal) (ix2 (0 : Fin 1) q) = m ((c : Thread nD τ).loc main_arg4) (ix1 q) := by
  obtain ⟨-, -, -, -, ⟨e0, e1⟩⟩ := idx_resident t
  refine Eq.trans ?_ (Cert.Rbf.Prefix.bias_row_at m c q)
  show V m c main_v4 (((cfg0.win 5).blk t).view.emb (ix2 (0 : Fin 1) q)) = V m c main_v4 (ix2 (0 : Fin 1) q)
  refine congrArg _ (funext fun a => Fin.ext ?_)
  match a with
  | ⟨0, _⟩ => show win0_5.index t (0 : Fin 2) * 1 + 1 * 0 = 0; omega
  | ⟨1, _⟩ => show win0_5.index t (1 : Fin 2) * 10 + 1 * q.val = q.val; omega

/-! ## What a point stores, over plain arrays -/

/-- The stored value at `(r, q)` is the score of point `p` as soon as the six loaded blocks are what the rows say:
    row `r` of the first is row `p` of the batch, the second is the centres, the third holds their squared lengths,
    the fourth is the widths, the fifth the weights, the sixth holds the bias. -/
theorem point_value (X : S16384x512.Idx → EReal) (C : S2048x512.Idx → EReal) (β : S1x2048.Idx → EReal)
    (W : S10x2048.Idx → EReal) (b : S10.Idx → EReal)
    (x0 : FVec Ideal S512x512 .f32) (x1 : FVec Ideal S2048x512 .f32) (x2 x3 : FVec Ideal S1x2048 .f32)
    (x4 : FVec Ideal S10x2048 .f32) (x5 : FVec Ideal S1x10 .f32) (p : Fin 16384) (r : Fin 512) (q : Fin 10)
    (h0 : ∀ k : Fin 512, x0 (ix2 r k) = X (ix2 p k)) (h1 : x1 = C)
    (h2 : ∀ j : Fin 2048, x2 (ix2 (0 : Fin 1) j) = Cert.Rbf.rowSq C j) (h3 : x3 = β) (h4 : x4 = W)
    (h5 : x5 (ix2 (0 : Fin 1) q) = b (ix1 q)) :
    k0_pay1 (F := Ideal) x0 x1 x2 x3 x4 x5 (ix2 r q) = Cert.Rbf.scores X C β W b (ix2 p q) := by
  subst h1 h3 h4
  rw [Cert.Rbf.Body.payload_at, Cert.Rbf.scores_apply]
  exact Cert.Rbf.blockScore_eq_score X x1 x3 x4 b x0 x2 x5 p r q h0 h2 h5

/-! ## What point `t` writes back, the cover, the array after the run -/

/-- Point `t` writes back block `t` of the array of scores. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S512x512) hz, View.ld_unit_zero (S := S2048x512) hz,
    View.ld_unit_zero (S := S1x2048) hz, View.ld_unit_zero (S := S10x2048) hz, View.ld_unit_zero (S := S1x10) hz]
  have ht := point_lt t
  obtain ⟨-, -, e0, e1⟩ := idx_rows t
  refine funext fun (y : S512x10.Idx) => ?_
  obtain ⟨r, q, rfl⟩ : ∃ (r : Fin 512) (q : Fin 10), y = ix2 r q := ⟨y 0, y 1, eq_ix2 y⟩
  have hemb : ((cfg0.win 6).blk t).view.emb (ix2 r q) = (ix2 (⟨512 * t.val + r.val, by omega⟩ : Fin 16384) q : S16384x10.Idx) :=
    funext fun a => Fin.ext (by
      match a with
      | ⟨0, _⟩ => show win0_6.index t (0 : Fin 2) * 512 + 1 * r.val = 512 * t.val + r.val; omega
      | ⟨1, _⟩ => show win0_6.index t (1 : Fin 2) * 10 + 1 * q.val = q.val; omega)
  show k0_pay1 (F := Ideal) (iblk m c 0 t) (iblk m c 1 t) (iblk m c 2 t) (iblk m c 3 t) (iblk m c 4 t) (iblk m c 5 t) (ix2 r q)
    = result m c (((cfg0.win 6).blk t).view.emb (ix2 r q))
  rw [hemb]
  exact point_value _ _ _ _ _ _ _ _ _ _ _ _ r q (batch_block m c t r _ rfl) (centres_block m c t)
    (centreSq_block m c t) (widths_block m c t) (weights_block m c t) (bias_block m c t q)

/-- An index of the result is in point `t`'s block iff each coordinate is in the block's range on its axis. -/
theorem mem_blk (t : Fin cfg0.N) (i : S16384x10.Idx) :
    i ∈ ((cfg0.win 6).blk t).view.set ↔ ∀ a : Fin 2, win0_6.index t a * S512x10.size a ≤ (i a).val
      ∧ (i a).val < win0_6.index t a * S512x10.size a + S512x10.size a := by
  show i ∈ ((View.whole main_v5).slice (win0_6.rect t)).set ↔ _
  rw [View.set_slice_whole, Rect.mem_set_unit]
  exact Iff.rfl

/-- Every index of the result lies in the block of the point its row belongs to. -/
theorem cover (i : S16384x10.Idx) :
    ∃ t : Fin cfg0.N, (cfg0.win 6).flush t = true ∧ i ∈ ((cfg0.win 6).blk t).view.set := by
  have hi0 : (i 0).val < 16384 := (i 0).isLt
  have hi1 : (i 1).val < 10 := (i 1).isLt
  have hN : cfg0.N = 32 := N_0
  have hlt : (i 0).val / 512 < cfg0.N := by rw [hN]; omega
  refine ⟨⟨(i 0).val / 512, hlt⟩, flush0_6 _, ?_⟩
  obtain ⟨-, -, e0, e1⟩ := idx_rows ⟨(i 0).val / 512, hlt⟩
  rw [mem_blk]
  intro a
  match a with
  | ⟨0, _⟩ =>
    show win0_6.index ⟨(i 0).val / 512, hlt⟩ (0 : Fin 2) * 512 ≤ (i 0).val
      ∧ (i 0).val < win0_6.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_6.index ⟨(i 0).val / 512, hlt⟩ (1 : Fin 2) * 10 ≤ (i 1).val
      ∧ (i 1).val < win0_6.index ⟨(i 0).val / 512, hlt⟩ (1 : Fin 2) * 10 + 10
    rw [e1]
    omega

/-- The result array after the run is the array of scores. -/
theorem final (c : Dev nD) : (dats m 0 c).arrAt 6 cfg0.N = result m c :=
  (dats m 0 c).arrAt_eq_of_cover 6 (result m c) (fun t _ => flushed_eq m c t) (cover)

/-- The kernel program's run: every weakly fair execution terminates with the result array at the scores of the
    arguments as launched, and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Rbf.WholeArray

end
-- ==== Proof.lean ====
/-
  A radial-basis-function classifier computed by one tiled kernel, against the same formula on whole arrays.

  Both programs take a batch X [16384, 512], centres C [2048, 512], widths β [1, 2048], class weights W [10, 2048] and
  a bias b [10], and return the [16384, 10] array whose entry (p, q) is
      Σ_j exp(−β_j · √(max(|x_p|² + |c_j|² − 2⟨x_p, c_j⟩, 0))) · W(q, j) + b(q).
  The reference writes this out on whole arrays. The kernel program sums the centres' squares once on the host, then
  walks the batch in 32 blocks of 512 rows; each block forms its own row sums of squares, its inner products with all
  the centres, the responses and the product with the weights, and writes the same 512 rows of the result.
  On the extended reals the two are one function, entry by entry: the formula is the same on both sides, with the same
  grouping and the same two constants; what differs is only where a sum is taken (per block or on the whole array),
  sums that start from the zero word (0 + s = s), the negated width spelt 0 − β against −β, and the weights used
  rows-against-rows in the kernel and transposed first in the reference. None of that needs the inputs to be finite, so
  the precondition is never opened. Nothing is rewritten by the idealization, so its conjunct is trivial.
  The frames of the two kernel programs and the launch side of the kernel's run are the generated modules';
  the reference's run and its stage-by-stage reading are the generated modules' too. Written here: the specification
  (Spec), that the reference is it (ReferenceScores), what the kernel body stores at an entry (Body, BlockScore), the two
  arrays the host lines write (HostPrefix), and from the blocks to the whole array (WholeArray).
-/
import proofs.«123419_j87239375716416_2_alg».proof.Defs
import proofs.«123419_j87239375716416_2_alg».proof.Proof.Gen.Kernel
import proofs.«123419_j87239375716416_2_alg».proof.Proof.Gen.Kernel.Skeleton
import proofs.«123419_j87239375716416_2_alg».proof.Proof.Gen.Kernel.Launch
import proofs.«123419_j87239375716416_2_alg».proof.Proof.Gen.Kernel.Points
import proofs.«123419_j87239375716416_2_alg».proof.Proof.Gen.Kernel.Frame
import proofs.«123419_j87239375716416_2_alg».proof.Proof.Gen.KernelIdeal
import proofs.«123419_j87239375716416_2_alg».proof.Proof.Gen.KernelIdeal.Skeleton
import proofs.«123419_j87239375716416_2_alg».proof.Proof.Gen.KernelIdeal.Launch
import proofs.«123419_j87239375716416_2_alg».proof.Proof.Gen.KernelIdeal.Points
import proofs.«123419_j87239375716416_2_alg».proof.Proof.Gen.KernelIdeal.Frame
import proofs.«123419_j87239375716416_2_alg».proof.Proof.Gen.ReferenceIdeal
import proofs.«123419_j87239375716416_2_alg».proof.Proof.Gen.Pre_finite_inputs
import proofs.«123419_j87239375716416_2_alg».proof.Proof.Gen.KernelIdeal.Value
import proofs.«123419_j87239375716416_2_alg».proof.Proof.Gen.ReferenceIdeal.Run
import proofs.«123419_j87239375716416_2_alg».proof.Proof.Gen.ReferenceIdeal.Read
import proofs.«123419_j87239375716416_2_alg».proof.Proof.ReferenceScores
import proofs.«123419_j87239375716416_2_alg».proof.Proof.WholeArray
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both programs end with the array of scores of those arguments:
    the kernel's run leaves it block by block, the reference's run is the formula read stage by stage. -/
theorem algebraic : Cert.algebraic_KernelIdeal_ReferenceIdeal := by
  intro m ρ m' ρ' _ hagree
  refine ⟨_, Cert.Rbf.WholeArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v24_eq _ _ _ _ _).trans (Cert.Rbf.Reference.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
